-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S1 .f32) (main_arg7 : FVec F S4096 .f32) (main_arg8 : FVec F S4096 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S4096 .f32) (main_arg2 : FVec F S4096x4096 .f32) (main_arg3 : FVec F S1 .f32) (main_arg4 : FVec F S4096 .f32) (main_arg5 : FVec F S4096x4096 .f32) (main_arg6 : FVec F S1 .f32) (main_arg7 : FVec F S4096 .f32) (main_arg8 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_v13 main_v16
-- ==== Kernel.lean ====
abbrev S4096x4096 : Shape := ⟨2, ![4096, 4096]⟩
abbrev S4096 : Shape := ⟨1, ![4096]⟩
abbrev S1 : Shape := ⟨1, ![1]⟩
abbrev S_ : Shape := ⟨0, ![]⟩
abbrev S1x4096 : Shape := ⟨2, ![1, 4096]⟩
abbrev S1024x256 : Shape := ⟨2, ![1024, 256]⟩
abbrev S1x256 : Shape := ⟨2, ![1, 256]⟩
abbrev S4096x256 : Shape := ⟨2, ![4096, 256]⟩
abbrev S1024x4096 : Shape := ⟨2, ![1024, 4096]⟩

abbrev nBuf : Space → Nat
  | .hbm => 23
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1, .f32⟩
  | .hbm, ⟨4, _⟩ => ⟨S4096, .f32⟩
  | .hbm, ⟨5, _⟩ => ⟨S4096x4096, .f32⟩
  | .hbm, ⟨6, _⟩ => ⟨S1, .f32⟩
  | .hbm, ⟨7, _⟩ => ⟨S4096, .f32⟩
  | .hbm, ⟨8, _⟩ => ⟨S4096, .f32⟩
  | .hbm, ⟨9, _⟩ => ⟨S4096x4096, .bf16⟩
  | .hbm, ⟨10, _⟩ => ⟨S4096x4096, .bf16⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S4096x4096, .f32⟩
  | .hbm, ⟨22, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1x256, .f32⟩
  | .local _ .vmem, ⟨4, _⟩ => ⟨S4096x256, .bf16⟩
  | .local _ .vmem, ⟨5, _⟩ => ⟨S4096x256, .bf16⟩
  | .local _ .vmem, ⟨6, _⟩ => ⟨S1x4096, .f32⟩
  | .local _ .vmem, ⟨7, _⟩ => ⟨S1024x4096, .f32⟩
  | .local _ .vmem, ⟨8, _⟩ => ⟨S1024x4096, .f32⟩
  | .local _ .vmem, ⟨9, _⟩ => ⟨S1024x4096, .f32⟩
  | .local _ .vmem, ⟨10, _⟩ => ⟨S1024x256, .f32⟩
  | .local _ .vmem, ⟨11, _⟩ => ⟨S1024x256, .f32⟩
  | .local _ .vmem, ⟨12, _⟩ => ⟨S4096x256, .bf16⟩
  | .local _ .vmem, ⟨13, _⟩ => ⟨S4096x256, .bf16⟩
  | .local _ .vmem, ⟨14, _⟩ => ⟨S1x4096, .f32⟩
  | .local _ .vmem, ⟨15, _⟩ => ⟨S1x4096, .f32⟩
  | .local _ .vmem, ⟨16, _⟩ => ⟨S1024x4096, .f32⟩
  | .local _ .vmem, ⟨17, _⟩ => ⟨S1024x4096, .f32⟩
  | .local _ .vmem, ⟨18, _⟩ => ⟨S1024x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  shapeCasts_S1_S_ : S1.ShapeCasts S_
  bcast_S_S4096 : S_.BroadcastsInDim S4096 (![] : Fin 0 → Fin S4096.rank)
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  shapeCasts_S1024x256_S1024x256 : S1024x256.ShapeCasts S1024x256
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x4096.size a
  hwx0_1 : ∀ i : grid0.Coords, EltTy.bits .f32 = 32 ∨ (Rect.block (s := S1x4096) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .bf16 = 32 ∨ (Rect.block (s := S4096x4096) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .f32 = 32 ∨ (Rect.block (s := S4096x4096) S1024x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x4096.size a
  hwx1_0 : ∀ i : grid1.Coords, EltTy.bits .f32 = 32 ∨ (Rect.block (s := S4096x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S4096x4096.size a
  hwx1_4 : ∀ i : grid1.Coords, EltTy.bits .f32 = 32 ∨ (Rect.block (s := S4096x4096) S1024x4096.size (cc1_transform_4 i) (hinb1_4 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v12) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1024x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1 : Shape := ⟨1, ![1]⟩
abbrev S1x4096 : Shape := ⟨2, ![1, 4096]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1, .f32⟩
  | .hbm, ⟨4, _⟩ => ⟨S4096, .f32⟩
  | .hbm, ⟨5, _⟩ => ⟨S4096x4096, .f32⟩
  | .hbm, ⟨6, _⟩ => ⟨S1, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x1, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KB.Run0.lean ====
/-
  The first kernel's body, run once per control case. The body keeps a running sum in a scratch block: at the
  first step of a row of the grid (inner coordinate 0) it clears the scratch and adds the step's partial product,
  at the middle steps it adds the step's partial product to what the step before left, and at the last step
  (inner coordinate 15) it adds and then stores the scaled sum into the output block. Each case is stated with
  the contents every buffer ends with named by the body's own arithmetic (the payload terms).
-/
import proofs.«135745_j1958505087324_2_alg».proof.Proof.Gen.Kernel.Launch
import proofs.«135745_j1958505087324_2_alg».proof.Proof.Gen.Kernel.Skeleton
import proofs.«135745_j1958505087324_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- The body's first branch condition: the inner grid coordinate is 0. -/
abbrev cond0_0 (i : grid0.Coords) : Prop := (Scalar.cmpi .ne (Scalar.extui (Scalar.cmpi .eq (BitVec.ofNat 32 (i 1).val) 0#32)) 0#32) = 1#1
/-- The body's second branch condition: the inner grid coordinate is 15. -/
abbrev cond0_1 (i : grid0.Coords) : Prop := k0_cond2 i = 1#1

set_option maxHeartbeats 1000000 in
/-- First step of a row of the grid: the scratch is cleared, then holds the step's partial product added to
    zero; the output block is left as found. -/
theorem run0_first (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : cond0_0 i) (hc1 : ¬cond0_1 i)
    (x0 : Vec F S1024x256 .f32) (x1 : Vec F S1x256 .f32) (x2 : Vec F S4096x256 .bf16) (x3 : Vec F S1x4096 .f32) (xi : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k0_pay2 x0 x1 x2 (k0_pay1 (F := F)))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2, View.readCov_unit_zero _ hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- A middle step: the scratch holds what the step before left, plus the step's partial product; the output
    block is left as found. -/
theorem run0_mid (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond0_0 i) (hc1 : ¬cond0_1 i)
    (x0 : Vec F S1024x256 .f32) (x1 : Vec F S1x256 .f32) (x2 : Vec F S4096x256 .bf16) (x3 : Vec F S1x4096 .f32) (xi : Vec F S1024x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- The last step of a row: the scratch holds what the step before left plus the step's partial product, and
    the output block is stored whole with the scaled sum. -/
theorem run0_last (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond0_0 i) (hc1 : cond0_1 i)
    (x0 : Vec F S1024x256 .f32) (x1 : Vec F S1x256 .f32) (x2 : Vec F S4096x256 .bf16) (x3 : Vec F S1x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay3 (k0_pay2 x0 x1 x2 xs) x3)
            ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero hz2 Facts₀.inb_S1024x4096_S1024x4096_0_0 y⟩),
        View.canon_cons_unit_zero hz2, View.readCov_unit_zero _ hz2]
    simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

end Cert.Kernel.Hand

end
-- ==== Proof.KB.Data0.lean ====
/-
  The first pallas_call as a pipeline run: what its scratch block and its output block hold after each grid step,
  as one recursion on the step (the running sum restarts at every step whose inner coordinate is 0), the proof data
  built on it, and the body's obligation at a generic step, by cases on the step's inner coordinate.
-/
import proofs.«135745_j1958505087324_2_alg».proof.Proof.KB.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at step `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    input's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    input's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    input's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken exactly at the steps whose inner coordinate is 0. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch is taken exactly at the steps whose inner coordinate is 15. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last step of a row the output block is neither stored into nor written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at step `t`, spelled as the pipeline passes it, and its wholeness. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
/-- The scratch block. -/
abbrev scM0 : Memref sig .tc .vmem S1024x4096 .f32 := Memref.whole cc0_scratch0

/-- The class invariant with the scratch block split off the other scoped buffers. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL]
  try rfl

/-- THE RUNNING SUM. What the scratch block holds after the body at step `n`: at a step whose inner coordinate is 0
    the step's partial product added to zero, at any other step added to what the step before left. -/
def acc0 (c : Dev nD) : (n : ℕ) → n < cfg0.N → Vec F S1024x4096 .f32
  | 0, hn => (k0_pay2 (iblk0 V c 0 ⟨0, hn⟩) (iblk0 V c 1 ⟨0, hn⟩) (iblk0 V c 2 ⟨0, hn⟩) (k0_pay1 (F := F)))
  | n + 1, hn =>
    if (n + 1) % 16 = 0 then (k0_pay2 (iblk0 V c 0 ⟨n + 1, hn⟩) (iblk0 V c 1 ⟨n + 1, hn⟩) (iblk0 V c 2 ⟨n + 1, hn⟩) (k0_pay1 (F := F)))
    else (k0_pay2 (iblk0 V c 0 ⟨n + 1, hn⟩) (iblk0 V c 1 ⟨n + 1, hn⟩) (iblk0 V c 2 ⟨n + 1, hn⟩) (acc0 c n (Nat.lt_of_succ_lt hn)))

theorem acc0_first (c : Dev nD) (t : Fin cfg0.N) (h0 : t.val % 16 = 0) :
    acc0 V c t.val t.isLt = (k0_pay2 (iblk0 V c 0 t) (iblk0 V c 1 t) (iblk0 V c 2 t) (k0_pay1 (F := F))) := by
  obtain ⟨n, hn⟩ := t
  cases n with
  | zero => rfl
  | succ n => exact (if_pos h0).trans rfl

theorem acc0_next (c : Dev nD) (t : Fin cfg0.N) (h0 : ¬t.val % 16 = 0) :
    acc0 V c t.val t.isLt = (k0_pay2 (iblk0 V c 0 t) (iblk0 V c 1 t) (iblk0 V c 2 t) (acc0 V c (t.val - 1) (Nat.lt_of_le_of_lt (Nat.sub_le _ _) t.isLt))) := by
  obtain ⟨n, hn⟩ := t
  cases n with
  | zero => exact absurd (Nat.zero_mod _) h0
  | succ n => exact (if_neg h0).trans rfl

/-- What the output block holds after the body at the last step of a row: the running sum scaled. -/
def out0 (c : Dev nD) (t : Fin cfg0.N) : Vec F S1024x4096 .f32 := (k0_pay3 (acc0 V c t.val t.isLt) (iblk0 V c 3 t))

/-- The invariant before step `n`: before the first step the class's (the scratch at anything); afterwards the scratch
    at the running sum of the step before, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this call on core `c`: the arrays as the call finds them; after the body each input's buffer at
    its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at step `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any step: the inputs' buffers hold their blocks; the step's inner coordinate says which case it is in;
    the invariant hands the body the scratch at the running sum of the step before (at anything before the first step)
    and takes it back at this step's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 16 = 15
  · have h0 : ¬t.val % 16 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    unfold out0
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 16 = 0
    · rw [acc0_first V c t h0]
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ ((hcond0_0 t).mpr h0) (fun h => h1 ((hcond0_1 t).mp h))
          (iblk0 V c 0 t) (iblk0 V c 1 t) (iblk0 V c 2 t) (iblk0 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ ((hcond0_0 t).mpr h0) (fun h => h1 ((hcond0_1 t).mp h))
          (iblk0 V c 0 t) (iblk0 V c 1 t) (iblk0 V c 2 t) (iblk0 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first step. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last step the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS, Hrest⟩, Hg⟩
  isplitl [HS Hrest]
  · isplitl [HS]; · iexists _; iexact HS
    iexact Hrest
  iexact Hg

end Cert.Kernel.Hand

end
-- ==== Proof.KB.Run1.lean ====
/-
  The second kernel's body, run once per control case. The body keeps a running sum in a scratch block: at the
  first step of a row of the grid (inner coordinate 0) it clears the scratch and adds the step's partial product,
  at the middle steps it adds the step's partial product to what the step before left, and at the last step
  (inner coordinate 15) it adds and then stores the scaled and shifted sum into the output block. Each case is stated with
  the contents every buffer ends with named by the body's own arithmetic (the payload terms).
-/
import proofs.«135745_j1958505087324_2_alg».proof.Proof.KB.Run0
import proofs.«135745_j1958505087324_2_alg».proof.Proof.Gen.Kernel.Skeleton
import proofs.«135745_j1958505087324_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition: the inner grid coordinate is 0. -/
abbrev cond1_0 (i : grid1.Coords) : Prop := (Scalar.cmpi .ne (Scalar.extui (Scalar.cmpi .eq (BitVec.ofNat 32 (i 1).val) 0#32)) 0#32) = 1#1
/-- The body's second branch condition: the inner grid coordinate is 15. -/
abbrev cond1_1 (i : grid1.Coords) : Prop := k1_cond2 i = 1#1

set_option maxHeartbeats 1000000 in
/-- First step of a row of the grid: the scratch is cleared, then holds the step's partial product added to
    zero; the output block is left as found. -/
theorem run1_first (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : cond1_0 i) (hc1 : ¬cond1_1 i)
    (x0 : Vec F S1024x256 .f32) (x1 : Vec F S4096x256 .bf16) (x2 : Vec F S1x4096 .f32) (x3 : Vec F S1x4096 .f32) (xi : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 (k1_pay1 (F := F)))) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2, View.readCov_unit_zero _ hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- A middle step: the scratch holds what the step before left, plus the step's partial product; the output
    block is left as found. -/
theorem run1_mid (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond1_0 i) (hc1 : ¬cond1_1 i)
    (x0 : Vec F S1024x256 .f32) (x1 : Vec F S4096x256 .bf16) (x2 : Vec F S1x4096 .f32) (x3 : Vec F S1x4096 .f32) (xi : Vec F S1024x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 xs)) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- The last step of a row: the scratch holds what the step before left plus the step's partial product, and
    the output block is stored whole with the scaled sum. -/
theorem run1_last (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond1_0 i) (hc1 : cond1_1 i)
    (x0 : Vec F S1024x256 .f32) (x1 : Vec F S4096x256 .bf16) (x2 : Vec F S1x4096 .f32) (x3 : Vec F S1x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero hz2 Facts₀.inb_S1024x4096_S1024x4096_0_0 y⟩),
        View.canon_cons_unit_zero hz2, View.readCov_unit_zero _ hz2]
    simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

end Cert.Kernel.Hand

end
-- ==== Proof.KB.Data1.lean ====
/-
  The second pallas_call as a pipeline run: what its scratch block and its output block hold after each grid step,
  as one recursion on the step (the running sum restarts at every step whose inner coordinate is 0), the proof data
  built on it, and the body's obligation at a generic step, by cases on the step's inner coordinate.
-/
import proofs.«135745_j1958505087324_2_alg».proof.Proof.KB.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at step `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    input's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    input's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    input's block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    input's block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first branch is taken exactly at the steps whose inner coordinate is 0. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch is taken exactly at the steps whose inner coordinate is 15. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last step of a row the output block is neither stored into nor written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging memref at step `t`, spelled as the pipeline passes it, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
/-- The scratch block. -/
abbrev scM1 : Memref sig .tc .vmem S1024x4096 .f32 := Memref.whole cc1_scratch0

/-- The class invariant with the scratch block split off the other scoped buffers. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]
  try rfl

/-- THE RUNNING SUM. What the scratch block holds after the body at step `n`: at a step whose inner coordinate is 0
    the step's partial product added to zero, at any other step added to what the step before left. -/
def acc1 (c : Dev nD) : (n : ℕ) → n < cfg1.N → Vec F S1024x4096 .f32
  | 0, hn => (k1_pay2 (iblk1 V c 0 ⟨0, hn⟩) (iblk1 V c 1 ⟨0, hn⟩) (k1_pay1 (F := F)))
  | n + 1, hn =>
    if (n + 1) % 16 = 0 then (k1_pay2 (iblk1 V c 0 ⟨n + 1, hn⟩) (iblk1 V c 1 ⟨n + 1, hn⟩) (k1_pay1 (F := F)))
    else (k1_pay2 (iblk1 V c 0 ⟨n + 1, hn⟩) (iblk1 V c 1 ⟨n + 1, hn⟩) (acc1 c n (Nat.lt_of_succ_lt hn)))

theorem acc1_first (c : Dev nD) (t : Fin cfg1.N) (h0 : t.val % 16 = 0) :
    acc1 V c t.val t.isLt = (k1_pay2 (iblk1 V c 0 t) (iblk1 V c 1 t) (k1_pay1 (F := F))) := by
  obtain ⟨n, hn⟩ := t
  cases n with
  | zero => rfl
  | succ n => exact (if_pos h0).trans rfl

theorem acc1_next (c : Dev nD) (t : Fin cfg1.N) (h0 : ¬t.val % 16 = 0) :
    acc1 V c t.val t.isLt = (k1_pay2 (iblk1 V c 0 t) (iblk1 V c 1 t) (acc1 V c (t.val - 1) (Nat.lt_of_le_of_lt (Nat.sub_le _ _) t.isLt))) := by
  obtain ⟨n, hn⟩ := t
  cases n with
  | zero => exact absurd (Nat.zero_mod _) h0
  | succ n => exact (if_neg h0).trans rfl

/-- What the output block holds after the body at the last step of a row: the running sum scaled and shifted. -/
def out1 (c : Dev nD) (t : Fin cfg1.N) : Vec F S1024x4096 .f32 := (k1_pay3 (acc1 V c t.val t.isLt) (iblk1 V c 2 t) (iblk1 V c 3 t))

/-- The invariant before step `n`: before the first step the class's (the scratch at anything); afterwards the scratch
    at the running sum of the step before, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this call on core `c`: the arrays as the call finds them; after the body each input's buffer at
    its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at step `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any step: the inputs' buffers hold their blocks; the step's inner coordinate says which case it is in;
    the invariant hands the body the scratch at the running sum of the step before (at anything before the first step)
    and takes it back at this step's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 16 = 15
  · have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    unfold out1
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (run1_last c (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [acc1_first V c t h0]
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every step. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first step. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last step the invariant gives the class's back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS, Hrest⟩, Hg⟩
  isplitl [HS Hrest]
  · isplitl [HS]; · iexists _; iexact HS
    iexact Hrest
  iexact Hg

end Cert.Kernel.Hand

end
-- ==== Proof.KB.Assembly.lean ====
/-
  The whole program as a chain of three segments — the host lines, the first call, the second call — and its run:
  the contents of every unscoped buffer at each boundary (the host lines' results, then the first call's output
  array at what its pipeline leaves, then the second's), the two calls as segments over those contents, and the
  launch. Every weakly fair execution terminates; at the end each argument array holds its launch contents and
  the result array holds what the second call's pipeline leaves.
-/
import proofs.«135745_j1958505087324_2_alg».proof.Proof.KB.Data0
import proofs.«135745_j1958505087324_2_alg».proof.Proof.KB.Data1
import proofs.«135745_j1958505087324_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host lines (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- An argument array no host line writes and no call stages as an output ends as launched. -/
theorem W1_of (c : Dev nD) (r : Ref sig .tc) (h : r ∉ (hostOps0_W : List (Ref sig .tc))) :
    W1 m ρ c (Proc.devRef .tc r) = m ((c : Thread nD τ).loc r) :=
  Cert.Kernel.Gen.V1_of m c r h
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_of m ρ c main_arg1 (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))
theorem W3_main_arg6 (c : Dev nD) : W3 m ρ c (Proc.devRef .tc main_arg6) = m ((c : Thread nD τ).loc main_arg6) :=
  (W3_of_ne m ρ c main_arg6 (by decide)).trans ((W2_of_ne m ρ c main_arg6 (by decide)).trans (W1_of m ρ c main_arg6 (by decide)))
theorem W3_main_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_of m ρ c main_arg7 (by decide)))
theorem W3_main_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_of m ρ c main_arg8 (by decide)))

/-- No call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Call 0 as a segment of @main: entered from every unscoped buffer at `W1`, left at `W2`. Its arrays are
    split out of the unscoped buffers and put back at the contents the pipeline leaves; the generator register and
    the scoped buffers go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered from every unscoped buffer at `W2`, left at `W3`. Its arrays are
    split out of the unscoped buffers and put back at the contents the pipeline leaves; the generator register and
    the scoped buffers go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩) (run_main m ρ)

/-- The result array ends at what the second call's pipeline leaves in it. -/
theorem result : θ_run defs (onTc (τ := τ) (main (F := F))) ⟨m, fun _ => 0, ρ⟩ (fun r => ∀ c : Dev nD,
      r.2.mem ((c.tc : Thread nD τ).loc main_v13) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v13 (by decide))).trans (W3_arr m ρ c 4),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩) (run_main m ρ)

end Cert.Kernel.Hand

end
-- ==== Proof.KI.Run0.lean ====
/-
  The first kernel's body, run once per control case. The body keeps a running sum in a scratch block: at the
  first step of a row of the grid (inner coordinate 0) it clears the scratch and adds the step's partial product,
  at the middle steps it adds the step's partial product to what the step before left, and at the last step
  (inner coordinate 15) it adds and then stores the scaled sum into the output block. Each case is stated with
  the contents every buffer ends with named by the body's own arithmetic (the payload terms).
-/
import proofs.«135745_j1958505087324_2_alg».proof.Proof.Gen.KernelIdeal.Launch
import proofs.«135745_j1958505087324_2_alg».proof.Proof.Gen.KernelIdeal.Skeleton
import proofs.«135745_j1958505087324_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- The body's first branch condition: the inner grid coordinate is 0. -/
abbrev cond0_0 (i : grid0.Coords) : Prop := (Scalar.cmpi .ne (Scalar.extui (Scalar.cmpi .eq (BitVec.ofNat 32 (i 1).val) 0#32)) 0#32) = 1#1
/-- The body's second branch condition: the inner grid coordinate is 15. -/
abbrev cond0_1 (i : grid0.Coords) : Prop := k0_cond2 i = 1#1

set_option maxHeartbeats 1000000 in
/-- First step of a row of the grid: the scratch is cleared, then holds the step's partial product added to
    zero; the output block is left as found. -/
theorem run0_first (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : cond0_0 i) (hc1 : ¬cond0_1 i)
    (x0 : Vec F S1024x256 .f32) (x1 : Vec F S1x256 .f32) (x2 : Vec F S4096x256 .bf16) (x3 : Vec F S1x4096 .f32) (xi : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k0_pay2 x0 x1 x2 (k0_pay1 (F := F)))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2, View.readCov_unit_zero _ hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- A middle step: the scratch holds what the step before left, plus the step's partial product; the output
    block is left as found. -/
theorem run0_mid (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond0_0 i) (hc1 : ¬cond0_1 i)
    (x0 : Vec F S1024x256 .f32) (x1 : Vec F S1x256 .f32) (x2 : Vec F S4096x256 .bf16) (x3 : Vec F S1x4096 .f32) (xi : Vec F S1024x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- The last step of a row: the scratch holds what the step before left plus the step's partial product, and
    the output block is stored whole with the scaled sum. -/
theorem run0_last (c : Dev nD) (i : grid0.Coords)
    (arg2 : Memref sig .tc .vmem S1024x256 .f32) (harg2 : arg2.IsWhole) (arg3 : Memref sig .tc .vmem S1x256 .f32) (harg3 : arg3.IsWhole)
    (arg4 : Memref sig .tc .vmem S4096x256 .bf16) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond0_0 i) (hc1 : cond0_1 i)
    (x0 : Vec F S1024x256 .f32) (x1 : Vec F S1x256 .f32) (x2 : Vec F S4096x256 .bf16) (x3 : Vec F S1x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay3 (k0_pay2 x0 x1 x2 xs) x3)
            ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero hz2 Facts₀.inb_S1024x4096_S1024x4096_0_0 y⟩),
        View.canon_cons_unit_zero hz2, View.readCov_unit_zero _ hz2]
    simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

end Cert.KernelIdeal.Hand

end
-- ==== Proof.KI.Run1.lean ====
/-
  The second kernel's body, run once per control case. The body keeps a running sum in a scratch block: at the
  first step of a row of the grid (inner coordinate 0) it clears the scratch and adds the step's partial product,
  at the middle steps it adds the step's partial product to what the step before left, and at the last step
  (inner coordinate 15) it adds and then stores the scaled and shifted sum into the output block. Each case is stated with
  the contents every buffer ends with named by the body's own arithmetic (the payload terms).
-/
import proofs.«135745_j1958505087324_2_alg».proof.Proof.KI.Run0
import proofs.«135745_j1958505087324_2_alg».proof.Proof.Gen.KernelIdeal.Skeleton
import proofs.«135745_j1958505087324_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition: the inner grid coordinate is 0. -/
abbrev cond1_0 (i : grid1.Coords) : Prop := (Scalar.cmpi .ne (Scalar.extui (Scalar.cmpi .eq (BitVec.ofNat 32 (i 1).val) 0#32)) 0#32) = 1#1
/-- The body's second branch condition: the inner grid coordinate is 15. -/
abbrev cond1_1 (i : grid1.Coords) : Prop := k1_cond2 i = 1#1

set_option maxHeartbeats 1000000 in
/-- First step of a row of the grid: the scratch is cleared, then holds the step's partial product added to
    zero; the output block is left as found. -/
theorem run1_first (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : cond1_0 i) (hc1 : ¬cond1_1 i)
    (x0 : Vec F S1024x256 .f32) (x1 : Vec F S4096x256 .bf16) (x2 : Vec F S1x4096 .f32) (x3 : Vec F S1x4096 .f32) (xi : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 (k1_pay1 (F := F)))) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2, View.readCov_unit_zero _ hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- A middle step: the scratch holds what the step before left, plus the step's partial product; the output
    block is left as found. -/
theorem run1_mid (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond1_0 i) (hc1 : ¬cond1_1 i)
    (x0 : Vec F S1024x256 .f32) (x1 : Vec F S4096x256 .bf16) (x2 : Vec F S1x4096 .f32) (x3 : Vec F S1x4096 .f32) (xi : Vec F S1024x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (k1_pay2 x0 x1 xs)) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

set_option maxHeartbeats 1000000 in
/-- The last step of a row: the scratch holds what the step before left plus the step's partial product, and
    the output block is stored whole with the scaled sum. -/
theorem run1_last (c : Dev nD) (i : grid1.Coords)
    (arg2 : Memref sig .tc .vmem S1024x256 .f32) (harg2 : arg2.IsWhole) (arg3 : Memref sig .tc .vmem S4096x256 .bf16) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .f32) (harg6 : arg6.IsWhole) (arg7 : Memref sig .tc .vmem S1024x4096 .f32) (harg7 : arg7.IsWhole)
    (hc0 : ¬cond1_0 i) (hc1 : cond1_1 i)
    (x0 : Vec F S1024x256 .f32) (x1 : Vec F S4096x256 .bf16) (x2 : Vec F S1x4096 .f32) (x3 : Vec F S1x4096 .f32) (xs : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__kernel2 i arg2 harg2 arg3 harg3 arg4 harg4 arg5 harg5 arg6 harg6 arg7 harg7) K := by
  simp only [cc1__kernel2_eq_skeleton]; unfold cc1__kernel2_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero hz2 Facts₀.inb_S1024x4096_S1024x4096_0_0 y⟩),
        View.canon_cons_unit_zero hz2, View.readCov_unit_zero _ hz2]
    simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]
  iexists _; isplitr
  swap; · iexact H7
  ipureintro
  sl_unfold_words
  rw [View.read_writes_eq_canon _ _ _ (fun y => ⟨_, List.mem_cons_self, View.mem_set_unit_zero hz2 Facts₀.inb_S1024x4096_S1024x4096_0_0 y⟩),
      View.canon_cons_unit_zero hz2]
  simp only [View.readAt_eq_ld, harg2.read_unread, harg3.read_unread, harg4.read_unread, harg5.read_unread, harg7.read_unread,
    View.ld_unit_zero (S := S1024x256) hz2, View.ld_unit_zero (S := S1x256) hz2, View.ld_unit_zero (S := S4096x256) hz2,
    View.ld_unit_zero (S := S1x4096) hz2, View.ld_unit_zero (S := S1024x4096) hz2]

end Cert.KernelIdeal.Hand

end
-- ==== Proof.KI.Data1.lean ====
/-
  The second pallas_call as a pipeline run: what its scratch block and its output block hold after each grid step,
  as one recursion on the step (the running sum restarts at every step whose inner coordinate is 0), the proof data
  built on it, and the body's obligation at a generic step, by cases on the step's inner coordinate.
-/
import proofs.«135745_j1958505087324_2_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at step `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    input's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    input's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    input's block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    input's block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first branch is taken exactly at the steps whose inner coordinate is 0. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch is taken exactly at the steps whose inner coordinate is 15. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last step of a row the output block is neither stored into nor written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging memref at step `t`, spelled as the pipeline passes it, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
/-- The scratch block. -/
abbrev scM1 : Memref sig .tc .vmem S1024x4096 .f32 := Memref.whole cc1_scratch0

/-- The class invariant with the scratch block split off the other scoped buffers. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]
  try rfl

/-- THE RUNNING SUM. What the scratch block holds after the body at step `n`: at a step whose inner coordinate is 0
    the step's partial product added to zero, at any other step added to what the step before left. -/
def acc1 (c : Dev nD) : (n : ℕ) → n < cfg1.N → Vec F S1024x4096 .f32
  | 0, hn => (k1_pay2 (iblk1 V c 0 ⟨0, hn⟩) (iblk1 V c 1 ⟨0, hn⟩) (k1_pay1 (F := F)))
  | n + 1, hn =>
    if (n + 1) % 16 = 0 then (k1_pay2 (iblk1 V c 0 ⟨n + 1, hn⟩) (iblk1 V c 1 ⟨n + 1, hn⟩) (k1_pay1 (F := F)))
    else (k1_pay2 (iblk1 V c 0 ⟨n + 1, hn⟩) (iblk1 V c 1 ⟨n + 1, hn⟩) (acc1 c n (Nat.lt_of_succ_lt hn)))

theorem acc1_first (c : Dev nD) (t : Fin cfg1.N) (h0 : t.val % 16 = 0) :
    acc1 V c t.val t.isLt = (k1_pay2 (iblk1 V c 0 t) (iblk1 V c 1 t) (k1_pay1 (F := F))) := by
  obtain ⟨n, hn⟩ := t
  cases n with
  | zero => rfl
  | succ n => exact (if_pos h0).trans rfl

theorem acc1_next (c : Dev nD) (t : Fin cfg1.N) (h0 : ¬t.val % 16 = 0) :
    acc1 V c t.val t.isLt = (k1_pay2 (iblk1 V c 0 t) (iblk1 V c 1 t) (acc1 V c (t.val - 1) (Nat.lt_of_le_of_lt (Nat.sub_le _ _) t.isLt))) := by
  obtain ⟨n, hn⟩ := t
  cases n with
  | zero => exact absurd (Nat.zero_mod _) h0
  | succ n => exact (if_neg h0).trans rfl

/-- What the output block holds after the body at the last step of a row: the running sum scaled and shifted. -/
def out1 (c : Dev nD) (t : Fin cfg1.N) : Vec F S1024x4096 .f32 := (k1_pay3 (acc1 V c t.val t.isLt) (iblk1 V c 2 t) (iblk1 V c 3 t))

/-- The invariant before step `n`: before the first step the class's (the scratch at anything); afterwards the scratch
    at the running sum of the step before, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this call on core `c`: the arrays as the call finds them; after the body each input's buffer at
    its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at step `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any step: the inputs' buffers hold their blocks; the step's inner coordinate says which case it is in;
    the invariant hands the body the scratch at the running sum of the step before (at anything before the first step)
    and takes it back at this step's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 16 = 15
  · have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    unfold out1
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (run1_last c (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [acc1_first V c t h0]
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every step. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first step. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last step the invariant gives the class's back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS, Hrest⟩, Hg⟩
  isplitl [HS Hrest]
  · isplitl [HS]; · iexists _; iexact HS
    iexact Hrest
  iexact Hg

end Cert.KernelIdeal.Hand

end
-- ==== Proof.LibRowsDot.lean ====
/-
  Rows against rows: the product of an M×K matrix with an N×K matrix, both contracted on their last axis.

  Entry (a, b) of such a product is the accumulator's entry plus Σ_c A(a, c) · B(b, c) — row a of the left operand
  against row b of the right one.  Read at the exact values (floats as extended reals), for the vector unit's product
  into an arbitrary accumulator and into the zero accumulator, where the sum stands alone.
-/
import Idealize.ShloMosaic.Lib.ValueIdx
import Idealize.ShloMosaic.PureOps.Ideal.Laws

noncomputable section

open scoped BigOperators

namespace Cert.RowsDot

open Idealize.ShloMosaic Idealize.ShloMosaic.ValueIdx

variable {m k n : Nat} {φ₁ φ₂ : FTy}

/-- The dimension numbers "contract the last axis of both operands", over any evidence of their well-formedness. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand is read at (a, c): its row is the output's row, its column the contracted position. -/
theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

/-- The right operand is read at (b, c): its row is the output's column, its column the contracted position. -/
theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- Into any accumulator: entry (a, b) is the accumulator's plus Σ_c A(a, c) · B(b, c). -/
theorem matmul_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (acc : FVec Ideal ⟨2, ![m, n]⟩ .f32) (a : Fin m) (b : Fin n) :
    FloatOps.matmul (dims w) prec A B acc (ix2 a b) = acc (ix2 a b) + ∑ c : Fin k, A (ix2 a c) * B (ix2 b c) := by
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- Into the zero accumulator: entry (a, b) is Σ_c A(a, c) · B(b, c). -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (dims w) k rfl rfl).symm]
  refine Finset.sum_congr rfl fun c _ => ?_
  rw [lhsIdx_eq, rhsIdx_eq]

end Cert.RowsDot

end
-- ==== Proof.KI.Payload.lean ====
/-
  The two bodies' arithmetic read at an entry, with floats as extended reals: clearing stores zero; one step adds to
  the running sum the product of the step's row block with the weight block, contracted over the step's 256
  columns (for the first kernel the row block is first scaled column by column); the last step scales the running
  sum column by column (and, for the second kernel, adds the bias).
-/
import proofs.«135745_j1958505087324_2_alg».proof.Proof.Gen.KernelIdeal.Skeleton
import proofs.«135745_j1958505087324_2_alg».proof.Proof.LibRowsDot
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

/-- A 1×256 row spread over 1024 rows reads its column. -/
theorem spread256 (x1 : Vec Ideal S1x256 .f32) (p : Fin 1024) (c : Fin 256) :
    broadcastTo S1024x256 x1 broadcasts_S1x256_S1024x256 (ix2 p c) = x1 (ix2 0 c) :=
  broadcastTo_apply x1 _ (ix2 p c) (ix2 0 c) (fun a => match a with
    | ⟨0, _⟩ => by show 0 = if (1 : Nat) = 1 then 0 else _; rw [if_pos rfl]
    | ⟨1, _⟩ => by show c.val = if (256 : Nat) = 1 then 0 else c.val; rw [if_neg (by decide)])

/-- A 1×4096 row spread over 1024 rows reads its column. -/
theorem spread4096 (x1 : Vec Ideal S1x4096 .f32) (p : Fin 1024) (q : Fin 4096) :
    broadcastTo S1024x4096 x1 broadcasts_S1x4096_S1024x4096 (ix2 p q) = x1 (ix2 0 q) :=
  broadcastTo_apply x1 _ (ix2 p q) (ix2 0 q) (fun a => match a with
    | ⟨0, _⟩ => by show 0 = if (1 : Nat) = 1 then 0 else _; rw [if_pos rfl]
    | ⟨1, _⟩ => by show q.val = if (4096 : Nat) = 1 then 0 else q.val; rw [if_neg (by decide)])

/-- Clearing stores zero. -/
theorem pay1_0 (p : Fin 1024) (q : Fin 4096) : k0_pay1 (F := Ideal) (ix2 p q) = 0 := by
  unfold k0_pay1
  rw [shapeCast_self]
  exact Ideal.ofBits_zero_f32
theorem pay1_1 (p : Fin 1024) (q : Fin 4096) : k1_pay1 (F := Ideal) (ix2 p q) = 0 := by
  unfold k1_pay1
  rw [shapeCast_self]
  exact Ideal.ofBits_zero_f32

/-- One step of the first kernel at an entry. -/
theorem pay2_0 (x0 : Vec Ideal S1024x256 .f32) (x1 : Vec Ideal S1x256 .f32) (x2 : Vec Ideal S4096x256 .bf16)
    (a : Vec Ideal S1024x4096 .f32) (p : Fin 1024) (q : Fin 4096) :
    k0_pay2 x0 x1 x2 a (ix2 p q) = a (ix2 p q) + ∑ c : Fin 256, (x0 (ix2 p c) * x1 (ix2 0 c)) * x2 (ix2 q c) := by
  unfold k0_pay2
  simp only [shapeCast_self]
  refine congrArg (a (ix2 p q) + ·) ?_
  refine (Cert.RowsDot.matmul_zero_apply (φ₁ := .bf16) (φ₂ := .bf16) dot_S1024x256_S4096x256_S1024x4096_1_1_0_0_n_n_wf none _ _ p q).trans ?_
  refine Finset.sum_congr rfl fun c _ => ?_
  refine congrArg (· * x2 (ix2 q c)) ?_
  exact congrArg (x0 (ix2 p c) * ·) (spread256 x1 p c)

/-- The last step of the first kernel at an entry. -/
theorem pay3_0 (a : Vec Ideal S1024x4096 .f32) (x3 : Vec Ideal S1x4096 .f32) (p : Fin 1024) (q : Fin 4096) :
    k0_pay3 a x3 (ix2 p q) = a (ix2 p q) * x3 (ix2 0 q) := by
  unfold k0_pay3
  simp only [shapeCast_self]
  exact congrArg (a (ix2 p q) * ·) (spread4096 x3 p q)

/-- One step of the second kernel at an entry. -/
theorem pay2_1 (x0 : Vec Ideal S1024x256 .f32) (x1 : Vec Ideal S4096x256 .bf16)
    (a : Vec Ideal S1024x4096 .f32) (p : Fin 1024) (q : Fin 4096) :
    k1_pay2 x0 x1 a (ix2 p q) = a (ix2 p q) + ∑ c : Fin 256, x0 (ix2 p c) * x1 (ix2 q c) := by
  unfold k1_pay2
  simp only [shapeCast_self]
  refine congrArg (a (ix2 p q) + ·) ?_
  exact Cert.RowsDot.matmul_zero_apply (φ₁ := .bf16) (φ₂ := .bf16) dot_S1024x256_S4096x256_S1024x4096_1_1_0_0_n_n_wf none _ _ p q

/-- The last step of the second kernel at an entry. -/
theorem pay3_1 (a : Vec Ideal S1024x4096 .f32) (x2 x3 : Vec Ideal S1x4096 .f32) (p : Fin 1024) (q : Fin 4096) :
    k1_pay3 a x2 x3 (ix2 p q) = a (ix2 p q) * x2 (ix2 0 q) + x3 (ix2 0 q) := by
  unfold k1_pay3
  simp only [shapeCast_self]
  show a (ix2 p q) * _ + _ = _
  rw [spread4096 x2 p q, spread4096 x3 p q]

end Cert.KernelIdeal.HandValue

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.KI.Data0.lean ====
/-
  The first pallas_call as a pipeline run: what its scratch block and its output block hold after each grid step,
  as one recursion on the step (the running sum restarts at every step whose inner coordinate is 0), the proof data
  built on it, and the body's obligation at a generic step, by cases on the step's inner coordinate.
-/
import proofs.«135745_j1958505087324_2_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at step `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    input's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    input's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    input's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken exactly at the steps whose inner coordinate is 0. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch is taken exactly at the steps whose inner coordinate is 15. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last step of a row the output block is neither stored into nor written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at step `t`, spelled as the pipeline passes it, and its wholeness. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
/-- The scratch block. -/
abbrev scM0 : Memref sig .tc .vmem S1024x4096 .f32 := Memref.whole cc0_scratch0

/-- The class invariant with the scratch block split off the other scoped buffers. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL]
  try rfl

/-- THE RUNNING SUM. What the scratch block holds after the body at step `n`: at a step whose inner coordinate is 0
    the step's partial product added to zero, at any other step added to what the step before left. -/
def acc0 (c : Dev nD) : (n : ℕ) → n < cfg0.N → Vec F S1024x4096 .f32
  | 0, hn => (k0_pay2 (iblk0 V c 0 ⟨0, hn⟩) (iblk0 V c 1 ⟨0, hn⟩) (iblk0 V c 2 ⟨0, hn⟩) (k0_pay1 (F := F)))
  | n + 1, hn =>
    if (n + 1) % 16 = 0 then (k0_pay2 (iblk0 V c 0 ⟨n + 1, hn⟩) (iblk0 V c 1 ⟨n + 1, hn⟩) (iblk0 V c 2 ⟨n + 1, hn⟩) (k0_pay1 (F := F)))
    else (k0_pay2 (iblk0 V c 0 ⟨n + 1, hn⟩) (iblk0 V c 1 ⟨n + 1, hn⟩) (iblk0 V c 2 ⟨n + 1, hn⟩) (acc0 c n (Nat.lt_of_succ_lt hn)))

theorem acc0_first (c : Dev nD) (t : Fin cfg0.N) (h0 : t.val % 16 = 0) :
    acc0 V c t.val t.isLt = (k0_pay2 (iblk0 V c 0 t) (iblk0 V c 1 t) (iblk0 V c 2 t) (k0_pay1 (F := F))) := by
  obtain ⟨n, hn⟩ := t
  cases n with
  | zero => rfl
  | succ n => exact (if_pos h0).trans rfl

theorem acc0_next (c : Dev nD) (t : Fin cfg0.N) (h0 : ¬t.val % 16 = 0) :
    acc0 V c t.val t.isLt = (k0_pay2 (iblk0 V c 0 t) (iblk0 V c 1 t) (iblk0 V c 2 t) (acc0 V c (t.val - 1) (Nat.lt_of_le_of_lt (Nat.sub_le _ _) t.isLt))) := by
  obtain ⟨n, hn⟩ := t
  cases n with
  | zero => exact absurd (Nat.zero_mod _) h0
  | succ n => exact (if_neg h0).trans rfl

/-- What the output block holds after the body at the last step of a row: the running sum scaled. -/
def out0 (c : Dev nD) (t : Fin cfg0.N) : Vec F S1024x4096 .f32 := (k0_pay3 (acc0 V c t.val t.isLt) (iblk0 V c 3 t))

/-- The invariant before step `n`: before the first step the class's (the scratch at anything); afterwards the scratch
    at the running sum of the step before, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this call on core `c`: the arrays as the call finds them; after the body each input's buffer at
    its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at step `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any step: the inputs' buffers hold their blocks; the step's inner coordinate says which case it is in;
    the invariant hands the body the scratch at the running sum of the step before (at anything before the first step)
    and takes it back at this step's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 16 = 15
  · have h0 : ¬t.val % 16 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    unfold out0
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 16 = 0
    · rw [acc0_first V c t h0]
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ ((hcond0_0 t).mpr h0) (fun h => h1 ((hcond0_1 t).mp h))
          (iblk0 V c 0 t) (iblk0 V c 1 t) (iblk0 V c 2 t) (iblk0 V c 3 t) _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ ((hcond0_0 t).mpr h0) (fun h => h1 ((hcond0_1 t).mp h))
          (iblk0 V c 0 t) (iblk0 V c 1 t) (iblk0 V c 2 t) (iblk0 V c 3 t) _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first step. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last step the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS, Hrest⟩, Hg⟩
  isplitl [HS Hrest]
  · isplitl [HS]; · iexists _; iexact HS
    iexact Hrest
  iexact Hg

end Cert.KernelIdeal.Hand

end
-- ==== Proof.KI.Sum0.lean ====
/-
  What the first call leaves in its output array, as one function of the arrays it is entered with. The running sum
  after a step whose inner coordinate is kk is the partial sum, over the first 256·(kk+1) columns, of the products
  of the row's entries with the weight row's; after the last step of a row of the grid it is the whole sum, which
  the body scales and stores; the sixteen-step rows of the grid write back the four row blocks of the array.
-/
import proofs.«135745_j1958505087324_2_alg».proof.Proof.KI.Data0
import proofs.«135745_j1958505087324_2_alg».proof.Proof.KI.Payload
import proofs.«135745_j1958505087324_2_alg».proof.Proof.LibBlockSum

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b)) (c : Dev nD)

/-- The call's arrays, as functions to the extended reals. -/
def xs : S4096x4096.Idx → EReal := V c main_arg0
def dbr : S1x4096.Idx → EReal := V c main_v10
def bb : S4096x4096.Idx → EReal := V c main_v0
def mid : S1x4096.Idx → EReal := V c main_v5

theorem idx0_0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)

/-- Window 0's block at a step, read at an entry, is its array at the entry the block's position names. -/
theorem blk0_0 (t : Fin cfg0.N) (p : Fin 1024) (k : Fin 256) (hr : 1024 * (t.val / 16) + p.val < 4096) (hk : 256 * (t.val % 16) + k.val < 4096) :
    (iblk0 V c 0 t : Vec Ideal S1024x256 .f32) (ix2 p k)
      = (V c main_arg0 : S4096x4096.Idx → EReal) (ix2 ⟨1024 * (t.val / 16) + p.val, hr⟩ ⟨256 * (t.val % 16) + k.val, hk⟩) := by
  unfold iblk0
  rw [View.read_apply]
  show (V c main_arg0 : S4096x4096.Idx → EReal) _ = _
  congr 1
  funext a
  apply Fin.ext
  match a with
  | ⟨0, _⟩ => show win0_0.index t 0 * 1024 + 1 * p.val = 1024 * (t.val / 16) + p.val; rw [(idx0_0 t).1]; first | omega | rfl | simp
  | ⟨1, _⟩ => show win0_0.index t 1 * 256 + 1 * k.val = 256 * (t.val % 16) + k.val; rw [(idx0_0 t).2]; first | omega | rfl | simp

theorem idx0_1 : ∀ t : Fin cfg0.N, win0_1.index t 0 = 0 ∧ win0_1.index t 1 = t.val % 16 :=
  (by decide +kernel : ∀ t : Fin grid0.N, win0_1.index t 0 = 0 ∧ win0_1.index t 1 = t.val % 16)

/-- Window 1's block at a step, read at an entry, is its array at the entry the block's position names. -/
theorem blk0_1 (t : Fin cfg0.N) (k : Fin 256) (hk : 256 * (t.val % 16) + k.val < 4096) :
    (iblk0 V c 1 t : Vec Ideal S1x256 .f32) (ix2 (0 : Fin 1) k)
      = (V c main_v10 : S1x4096.Idx → EReal) (ix2 (0 : Fin 1) ⟨256 * (t.val % 16) + k.val, hk⟩) := by
  unfold iblk0
  rw [View.read_apply]
  show (V c main_v10 : S1x4096.Idx → EReal) _ = _
  congr 1
  funext a
  apply Fin.ext
  match a with
  | ⟨0, _⟩ => show win0_1.index t 0 * 1 + 1 * (0 : Fin 1).val = (0 : Fin 1).val; rw [(idx0_1 t).1]; first | omega | rfl | simp
  | ⟨1, _⟩ => show win0_1.index t 1 * 256 + 1 * k.val = 256 * (t.val % 16) + k.val; rw [(idx0_1 t).2]; first | omega | rfl | simp

theorem idx0_2 : ∀ t : Fin cfg0.N, win0_2.index t 0 = 0 ∧ win0_2.index t 1 = t.val % 16 :=
  (by decide +kernel : ∀ t : Fin grid0.N, win0_2.index t 0 = 0 ∧ win0_2.index t 1 = t.val % 16)

/-- Window 2's block at a step, read at an entry, is its array at the entry the block's position names. -/
theorem blk0_2 (t : Fin cfg0.N) (p : Fin 4096) (k : Fin 256) (hk : 256 * (t.val % 16) + k.val < 4096) :
    (iblk0 V c 2 t : Vec Ideal S4096x256 .bf16) (ix2 p k)
      = (V c main_v0 : S4096x4096.Idx → EReal) (ix2 p ⟨256 * (t.val % 16) + k.val, hk⟩) := by
  unfold iblk0
  rw [View.read_apply]
  show (V c main_v0 : S4096x4096.Idx → EReal) _ = _
  congr 1
  funext a
  apply Fin.ext
  match a with
  | ⟨0, _⟩ => show win0_2.index t 0 * 4096 + 1 * p.val = p.val; rw [(idx0_2 t).1]; first | omega | rfl | simp
  | ⟨1, _⟩ => show win0_2.index t 1 * 256 + 1 * k.val = 256 * (t.val % 16) + k.val; rw [(idx0_2 t).2]; first | omega | rfl | simp

theorem idx0_3 : ∀ t : Fin cfg0.N, win0_3.index t 0 = 0 ∧ win0_3.index t 1 = 0 :=
  (by decide +kernel : ∀ t : Fin grid0.N, win0_3.index t 0 = 0 ∧ win0_3.index t 1 = 0)

/-- Window 3's block at a step, read at an entry, is its array at the entry the block's position names. -/
theorem blk0_3 (t : Fin cfg0.N) (k : Fin 4096) :
    (iblk0 V c 3 t : Vec Ideal S1x4096 .f32) (ix2 (0 : Fin 1) k)
      = mid V c (ix2 (0 : Fin 1) k) := by
  unfold iblk0
  rw [View.read_apply]
  show mid V c _ = _
  congr 1
  funext a
  apply Fin.ext
  match a with
  | ⟨0, _⟩ => show win0_3.index t 0 * 1 + 1 * (0 : Fin 1).val = (0 : Fin 1).val; rw [(idx0_3 t).1]; first | omega | rfl | simp
  | ⟨1, _⟩ => show win0_3.index t 1 * 4096 + 1 * k.val = k.val; rw [(idx0_3 t).2]; first | omega | rfl | simp

/-- The summand of entry (r, q): column k of row r, scaled, against column k of weight row q. -/
def term0 (r q k : Fin 4096) : EReal :=
  (xs V c (ix2 r k) * dbr V c (ix2 (0 : Fin 1) k)) * bb V c (ix2 q k)

/-- The array row that row p of the step-n block is. -/
def rowAt (n : ℕ) (p : Fin 1024) (h : n < 64) : Fin 4096 := ⟨1024 * (n / 16) + p.val, by have := p.isLt; omega⟩

/-- One step at an entry: the running sum's entry plus the next 256 terms of the entry's sum. -/
theorem step0 (t : Fin cfg0.N) (hN : t.val < 64) (a : Vec Ideal S1024x4096 .f32) (p : Fin 1024) (q : Fin 4096) :
    k0_pay2 (iblk0 V c 0 t) (iblk0 V c 1 t) (iblk0 V c 2 t) a (ix2 p q)
      = a (ix2 p q) + ∑ k : Fin 256, term0 V c (rowAt t.val p hN) q ⟨256 * (t.val % 16) + k.val, by have := k.isLt; omega⟩ := by
  rw [pay2_0]
  refine congrArg (a (ix2 p q) + ·) (Finset.sum_congr rfl fun k _ => ?_)
  rw [blk0_0 V c t p k (by have := p.isLt; omega) (by have := k.isLt; omega), blk0_1 V c t k (by have := k.isLt; omega), blk0_2 V c t q k (by have := k.isLt; omega)]
  rfl

/-- THE RUNNING SUM IN CLOSED FORM: after step n the scratch's entry (p, q) is the partial sum over the first
    256·(n mod 16) + 256 columns. By induction on the step. -/
theorem acc0_closed : ∀ (n : ℕ) (h : n < cfg0.N) (hN : n < 64) (p : Fin 1024) (q : Fin 4096),
    acc0 V c n h (ix2 p q) = Cert.BlockSum.partialSum (term0 V c (rowAt n p hN) q) (256 * (n % 16) + 256)
  | 0, h, hN, p, q => by
    rw [acc0_first V c ⟨0, h⟩ rfl, step0 V c ⟨0, h⟩ hN _ p q, pay1_0, zero_add]
    have e := Cert.BlockSum.partialSum_add_block (term0 V c (rowAt 0 p hN) q) (256 * (0 % 16)) 256 (by omega)
    have hz : Cert.BlockSum.partialSum (term0 V c (rowAt 0 p hN) q) (256 * (0 % 16)) = 0 := Cert.BlockSum.partialSum_zero _
    rw [hz, zero_add] at e
    exact e
  | n + 1, h, hN, p, q => by
    by_cases h0 : (n + 1) % 16 = 0
    · rw [acc0_first V c ⟨n + 1, h⟩ h0, step0 V c ⟨n + 1, h⟩ hN _ p q, pay1_0, zero_add]
      have e := Cert.BlockSum.partialSum_add_block (term0 V c (rowAt (n + 1) p hN) q) (256 * ((n + 1) % 16)) 256 (by omega)
      have hz : Cert.BlockSum.partialSum (term0 V c (rowAt (n + 1) p hN) q) (256 * ((n + 1) % 16)) = 0 := by
        rw [show 256 * ((n + 1) % 16) = 0 from by omega]; exact Cert.BlockSum.partialSum_zero _
      rw [hz, zero_add] at e
      exact e
    · rw [acc0_next V c ⟨n + 1, h⟩ h0, step0 V c ⟨n + 1, h⟩ hN _ p q]
      show acc0 V c n _ (ix2 p q) + _ = _
      rw [acc0_closed n _ (by omega) p q]
      have hrow : rowAt n p (by omega) = rowAt (n + 1) p hN := Fin.ext (by show 1024 * (n / 16) + p.val = 1024 * ((n + 1) / 16) + p.val; omega)
      rw [hrow, show 256 * (n % 16) + 256 = 256 * ((n + 1) % 16) from by omega]
      exact Cert.BlockSum.partialSum_add_block (term0 V c (rowAt (n + 1) p hN) q) (256 * ((n + 1) % 16)) 256 (by omega)

/-- At the last step of a row of the grid the output block's entry is the whole sum, scaled. -/
theorem out0_apply (t : Fin cfg0.N) (hN : t.val < 64) (h15 : t.val % 16 = 15) (p : Fin 1024) (q : Fin 4096) :
    out0 V c t (ix2 p q) = (∑ k : Fin 4096, term0 V c (rowAt t.val p hN) q k) * mid V c (ix2 (0 : Fin 1) q) := by
  unfold out0
  rw [pay3_0, acc0_closed V c t.val t.isLt hN p q, blk0_3 V c t q]
  rw [show 256 * (t.val % 16) + 256 = 4096 from by omega, Cert.BlockSum.partialSum_full]

/-- THE OUTPUT ARRAY, as one function of the arrays the call is entered with. -/
def G0 : Buf (Elt Ideal) ((c : Thread nD τ).loc main_v12) := fun j =>
  (∑ k : Fin 4096, term0 V c (j 0) (j 1) k) * mid V c (ix2 (0 : Fin 1) (j 1))

theorem idx0_4 : ∀ t : Fin cfg0.N, win0_4.index t 0 = t.val / 16 ∧ win0_4.index t 1 = 0 :=
  (by decide +kernel : ∀ t : Fin grid0.N, win0_4.index t 0 = t.val / 16 ∧ win0_4.index t 1 = 0)

/-- What a write-back writes is the block of that function its position names. -/
theorem flushed_eq0 (t : Fin cfg0.N) (hf : (cfg0.win 4).flush t = true) :
    (dat0 V c).flushed 4 t = ((cfg0.win 4).blk t).view.read (Elt Ideal) (G0 V c) := by
  have h15 : t.val % 16 = 15 := (flush0_4 t).mp hf
  have hN : t.val < 64 := lt_of_lt_of_eq t.isLt (show cfg0.N = 64 from N_0)
  show (cfg0.win 4).cut (grid0.coords t) ((dat0 V c).after 4 t) = _
  rw [after0_4]
  funext y
  rw [View.read_apply]
  obtain ⟨p, q, rfl⟩ : ∃ (p : Fin 1024) (q : Fin 4096), y = ix2 p q := ⟨y 0, y 1, eq_ix2 y⟩
  show out0 V c t (ix2 p q) = G0 V c (((cfg0.win 4).blk t).view.emb (ix2 p q))
  rw [out0_apply V c t hN h15 p q]
  have he : ((cfg0.win 4).blk t).view.emb (ix2 p q) = ix2 (rowAt t.val p hN) q := funext fun a => Fin.ext (by
    match a with
    | ⟨0, _⟩ => show win0_4.index t 0 * 1024 + 1 * p.val = 1024 * (t.val / 16) + p.val; rw [(idx0_4 t).1]; omega
    | ⟨1, _⟩ => show win0_4.index t 1 * 4096 + 1 * q.val = q.val; rw [(idx0_4 t).2]; omega)
  rw [he]
  rfl

theorem xsize0_4 : ∀ t : Fin cfg0.N, win0_4.xsize (grid0.coords t) 0 = 1024 ∧ win0_4.xsize (grid0.coords t) 1 = 4096 :=
  (by decide +kernel : ∀ t : Fin grid0.N, win0_4.xsize (grid0.coords t) 0 = 1024 ∧ win0_4.xsize (grid0.coords t) 1 = 4096)

/-- Every entry of the output array lies in the block some write-back writes: the one of its row's block of 1024 rows. -/
theorem cover0 (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 4096 := (i 0).isLt
  have h1 : (i 1 : Nat) < 4096 := (i 1).isLt
  have hN : cfg0.N = 64 := N_0
  have hG : grid0.N = 64 := N_0
  obtain ⟨t0, ht0⟩ : ∃ t0 : Fin grid0.N, t0.val = 16 * ((i 0 : Nat) / 1024) + 15 := ⟨⟨_, by omega⟩, rfl⟩
  refine ⟨t0, (flush0_4 t0).mpr (by rw [ht0]; omega), ?_⟩
  show i ∈ ((View.whole main_v12).slice (win0_4.rect t0)).set
  rw [View.set_slice_whole, Rect.mem_set_unit]
  intro a
  have hx := xsize0_4 t0
  have hi := idx0_4 t0
  match a with
  | ⟨0, _⟩ =>
    show win0_4.index t0 0 * win0_4.size 0 ≤ (i 0 : Nat) ∧ (i 0 : Nat) < win0_4.index t0 0 * win0_4.size 0 + win0_4.xsize (grid0.coords t0) 0
    rw [hi.1, hx.1, ht0]
    show (16 * ((i 0 : Nat) / 1024) + 15) / 16 * 1024 ≤ (i 0 : Nat) ∧ (i 0 : Nat) < (16 * ((i 0 : Nat) / 1024) + 15) / 16 * 1024 + 1024
    omega
  | ⟨1, _⟩ =>
    show win0_4.index t0 1 * win0_4.size 1 ≤ (i 1 : Nat) ∧ (i 1 : Nat) < win0_4.index t0 1 * win0_4.size 1 + win0_4.xsize (grid0.coords t0) 1
    rw [hi.2, hx.2]
    show 0 * 4096 ≤ (i 1 : Nat) ∧ (i 1 : Nat) < 0 * 4096 + 4096
    omega

/-- So the output array ends holding that function. -/
theorem final0 : (dat0 V c).arrAt 4 cfg0.N = G0 V c :=
  (dat0 V c).arrAt_eq_of_cover 4 (G0 V c) (flushed_eq0 V c) (cover0 c)

end Cert.KernelIdeal.HandValue

end
-- ==== Proof.KI.Sum1.lean ====
/-
  What the second call leaves in its output array, as one function of the arrays it is entered with. The running sum
  after a step whose inner coordinate is kk is the partial sum, over the first 256·(kk+1) columns, of the products
  of the row's entries with the weight row's; after the last step of a row of the grid it is the whole sum, which
  the body scales, shifts and stores; the sixteen-step rows of the grid write back the four row blocks of the array.
-/
import proofs.«135745_j1958505087324_2_alg».proof.Proof.KI.Data1
import proofs.«135745_j1958505087324_2_alg».proof.Proof.KI.Payload
import proofs.«135745_j1958505087324_2_alg».proof.Proof.LibBlockSum
import proofs.«135745_j1958505087324_2_alg».proof.Proof.KI.Sum0

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b)) (c : Dev nD)

/-- The call's arrays, as functions to the extended reals. -/
def hh : S4096x4096.Idx → EReal := V c main_v12
def ab : S4096x4096.Idx → EReal := V c main_v1
def da : S1x4096.Idx → EReal := V c main_v9
def bs : S1x4096.Idx → EReal := V c main_v11

theorem idx1_0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)

/-- Window 0's block at a step, read at an entry, is its array at the entry the block's position names. -/
theorem blk1_0 (t : Fin cfg1.N) (p : Fin 1024) (k : Fin 256) (hr : 1024 * (t.val / 16) + p.val < 4096) (hk : 256 * (t.val % 16) + k.val < 4096) :
    (iblk1 V c 0 t : Vec Ideal S1024x256 .f32) (ix2 p k)
      = (V c main_v12 : S4096x4096.Idx → EReal) (ix2 ⟨1024 * (t.val / 16) + p.val, hr⟩ ⟨256 * (t.val % 16) + k.val, hk⟩) := by
  unfold iblk1
  rw [View.read_apply]
  show (V c main_v12 : S4096x4096.Idx → EReal) _ = _
  congr 1
  funext a
  apply Fin.ext
  match a with
  | ⟨0, _⟩ => show win1_0.index t 0 * 1024 + 1 * p.val = 1024 * (t.val / 16) + p.val; rw [(idx1_0 t).1]; first | omega | rfl | simp
  | ⟨1, _⟩ => show win1_0.index t 1 * 256 + 1 * k.val = 256 * (t.val % 16) + k.val; rw [(idx1_0 t).2]; first | omega | rfl | simp

theorem idx1_1 : ∀ t : Fin cfg1.N, win1_1.index t 0 = 0 ∧ win1_1.index t 1 = t.val % 16 :=
  (by decide +kernel : ∀ t : Fin grid1.N, win1_1.index t 0 = 0 ∧ win1_1.index t 1 = t.val % 16)

/-- Window 1's block at a step, read at an entry, is its array at the entry the block's position names. -/
theorem blk1_1 (t : Fin cfg1.N) (p : Fin 4096) (k : Fin 256) (hk : 256 * (t.val % 16) + k.val < 4096) :
    (iblk1 V c 1 t : Vec Ideal S4096x256 .bf16) (ix2 p k)
      = (V c main_v1 : S4096x4096.Idx → EReal) (ix2 p ⟨256 * (t.val % 16) + k.val, hk⟩) := by
  unfold iblk1
  rw [View.read_apply]
  show (V c main_v1 : S4096x4096.Idx → EReal) _ = _
  congr 1
  funext a
  apply Fin.ext
  match a with
  | ⟨0, _⟩ => show win1_1.index t 0 * 4096 + 1 * p.val = p.val; rw [(idx1_1 t).1]; first | omega | rfl | simp
  | ⟨1, _⟩ => show win1_1.index t 1 * 256 + 1 * k.val = 256 * (t.val % 16) + k.val; rw [(idx1_1 t).2]; first | omega | rfl | simp

theorem idx1_2 : ∀ t : Fin cfg1.N, win1_2.index t 0 = 0 ∧ win1_2.index t 1 = 0 :=
  (by decide +kernel : ∀ t : Fin grid1.N, win1_2.index t 0 = 0 ∧ win1_2.index t 1 = 0)

/-- Window 2's block at a step, read at an entry, is its array at the entry the block's position names. -/
theorem blk1_2 (t : Fin cfg1.N) (k : Fin 4096) :
    (iblk1 V c 2 t : Vec Ideal S1x4096 .f32) (ix2 (0 : Fin 1) k)
      = da V c (ix2 (0 : Fin 1) k) := by
  unfold iblk1
  rw [View.read_apply]
  show da V c _ = _
  congr 1
  funext a
  apply Fin.ext
  match a with
  | ⟨0, _⟩ => show win1_2.index t 0 * 1 + 1 * (0 : Fin 1).val = (0 : Fin 1).val; rw [(idx1_2 t).1]; first | omega | rfl | simp
  | ⟨1, _⟩ => show win1_2.index t 1 * 4096 + 1 * k.val = k.val; rw [(idx1_2 t).2]; first | omega | rfl | simp

theorem idx1_3 : ∀ t : Fin cfg1.N, win1_3.index t 0 = 0 ∧ win1_3.index t 1 = 0 :=
  (by decide +kernel : ∀ t : Fin grid1.N, win1_3.index t 0 = 0 ∧ win1_3.index t 1 = 0)

/-- Window 3's block at a step, read at an entry, is its array at the entry the block's position names. -/
theorem blk1_3 (t : Fin cfg1.N) (k : Fin 4096) :
    (iblk1 V c 3 t : Vec Ideal S1x4096 .f32) (ix2 (0 : Fin 1) k)
      = bs V c (ix2 (0 : Fin 1) k) := by
  unfold iblk1
  rw [View.read_apply]
  show bs V c _ = _
  congr 1
  funext a
  apply Fin.ext
  match a with
  | ⟨0, _⟩ => show win1_3.index t 0 * 1 + 1 * (0 : Fin 1).val = (0 : Fin 1).val; rw [(idx1_3 t).1]; first | omega | rfl | simp
  | ⟨1, _⟩ => show win1_3.index t 1 * 4096 + 1 * k.val = k.val; rw [(idx1_3 t).2]; first | omega | rfl | simp

/-- The summand of entry (r, q): column k of row r against column k of weight row q. -/
def term1 (r q k : Fin 4096) : EReal :=
  hh V c (ix2 r k) * ab V c (ix2 q k)

/-- One step at an entry: the running sum's entry plus the next 256 terms of the entry's sum. -/
theorem step1 (t : Fin cfg1.N) (hN : t.val < 64) (a : Vec Ideal S1024x4096 .f32) (p : Fin 1024) (q : Fin 4096) :
    k1_pay2 (iblk1 V c 0 t) (iblk1 V c 1 t) a (ix2 p q)
      = a (ix2 p q) + ∑ k : Fin 256, term1 V c (rowAt t.val p hN) q ⟨256 * (t.val % 16) + k.val, by have := k.isLt; omega⟩ := by
  rw [pay2_1]
  refine congrArg (a (ix2 p q) + ·) (Finset.sum_congr rfl fun k _ => ?_)
  rw [blk1_0 V c t p k (by have := p.isLt; omega) (by have := k.isLt; omega), blk1_1 V c t q k (by have := k.isLt; omega)]
  rfl

/-- THE RUNNING SUM IN CLOSED FORM: after step n the scratch's entry (p, q) is the partial sum over the first
    256·(n mod 16) + 256 columns. By induction on the step. -/
theorem acc1_closed : ∀ (n : ℕ) (h : n < cfg1.N) (hN : n < 64) (p : Fin 1024) (q : Fin 4096),
    acc1 V c n h (ix2 p q) = Cert.BlockSum.partialSum (term1 V c (rowAt n p hN) q) (256 * (n % 16) + 256)
  | 0, h, hN, p, q => by
    rw [acc1_first V c ⟨0, h⟩ rfl, step1 V c ⟨0, h⟩ hN _ p q, pay1_1, zero_add]
    have e := Cert.BlockSum.partialSum_add_block (term1 V c (rowAt 0 p hN) q) (256 * (0 % 16)) 256 (by omega)
    have hz : Cert.BlockSum.partialSum (term1 V c (rowAt 0 p hN) q) (256 * (0 % 16)) = 0 := Cert.BlockSum.partialSum_zero _
    rw [hz, zero_add] at e
    exact e
  | n + 1, h, hN, p, q => by
    by_cases h0 : (n + 1) % 16 = 0
    · rw [acc1_first V c ⟨n + 1, h⟩ h0, step1 V c ⟨n + 1, h⟩ hN _ p q, pay1_1, zero_add]
      have e := Cert.BlockSum.partialSum_add_block (term1 V c (rowAt (n + 1) p hN) q) (256 * ((n + 1) % 16)) 256 (by omega)
      have hz : Cert.BlockSum.partialSum (term1 V c (rowAt (n + 1) p hN) q) (256 * ((n + 1) % 16)) = 0 := by
        rw [show 256 * ((n + 1) % 16) = 0 from by omega]; exact Cert.BlockSum.partialSum_zero _
      rw [hz, zero_add] at e
      exact e
    · rw [acc1_next V c ⟨n + 1, h⟩ h0, step1 V c ⟨n + 1, h⟩ hN _ p q]
      show acc1 V c n _ (ix2 p q) + _ = _
      rw [acc1_closed n _ (by omega) p q]
      have hrow : rowAt n p (by omega) = rowAt (n + 1) p hN := Fin.ext (by show 1024 * (n / 16) + p.val = 1024 * ((n + 1) / 16) + p.val; omega)
      rw [hrow, show 256 * (n % 16) + 256 = 256 * ((n + 1) % 16) from by omega]
      exact Cert.BlockSum.partialSum_add_block (term1 V c (rowAt (n + 1) p hN) q) (256 * ((n + 1) % 16)) 256 (by omega)

/-- At the last step of a row of the grid the output block's entry is the whole sum, scaled and shifted. -/
theorem out1_apply (t : Fin cfg1.N) (hN : t.val < 64) (h15 : t.val % 16 = 15) (p : Fin 1024) (q : Fin 4096) :
    out1 V c t (ix2 p q) = (∑ k : Fin 4096, term1 V c (rowAt t.val p hN) q k) * da V c (ix2 (0 : Fin 1) q) + bs V c (ix2 (0 : Fin 1) q) := by
  unfold out1
  rw [pay3_1, acc1_closed V c t.val t.isLt hN p q, blk1_2 V c t q, blk1_3 V c t q]
  rw [show 256 * (t.val % 16) + 256 = 4096 from by omega, Cert.BlockSum.partialSum_full]

/-- THE OUTPUT ARRAY, as one function of the arrays the call is entered with. -/
def G1 : Buf (Elt Ideal) ((c : Thread nD τ).loc main_v13) := fun j =>
  (∑ k : Fin 4096, term1 V c (j 0) (j 1) k) * da V c (ix2 (0 : Fin 1) (j 1)) + bs V c (ix2 (0 : Fin 1) (j 1))

theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)

/-- What a write-back writes is the block of that function its position names. -/
theorem flushed_eq1 (t : Fin cfg1.N) (hf : (cfg1.win 4).flush t = true) :
    (dat1 V c).flushed 4 t = ((cfg1.win 4).blk t).view.read (Elt Ideal) (G1 V c) := by
  have h15 : t.val % 16 = 15 := (flush1_4 t).mp hf
  have hN : t.val < 64 := lt_of_lt_of_eq t.isLt (show cfg1.N = 64 from N_1)
  show (cfg1.win 4).cut (grid1.coords t) ((dat1 V c).after 4 t) = _
  rw [after1_4]
  funext y
  rw [View.read_apply]
  obtain ⟨p, q, rfl⟩ : ∃ (p : Fin 1024) (q : Fin 4096), y = ix2 p q := ⟨y 0, y 1, eq_ix2 y⟩
  show out1 V c t (ix2 p q) = G1 V c (((cfg1.win 4).blk t).view.emb (ix2 p q))
  rw [out1_apply V c t hN h15 p q]
  have he : ((cfg1.win 4).blk t).view.emb (ix2 p q) = ix2 (rowAt t.val p hN) q := funext fun a => Fin.ext (by
    match a with
    | ⟨0, _⟩ => show win1_4.index t 0 * 1024 + 1 * p.val = 1024 * (t.val / 16) + p.val; rw [(idx1_4 t).1]; omega
    | ⟨1, _⟩ => show win1_4.index t 1 * 4096 + 1 * q.val = q.val; rw [(idx1_4 t).2]; omega)
  rw [he]
  rfl

theorem xsize1_4 : ∀ t : Fin cfg1.N, win1_4.xsize (grid1.coords t) 0 = 1024 ∧ win1_4.xsize (grid1.coords t) 1 = 4096 :=
  (by decide +kernel : ∀ t : Fin grid1.N, win1_4.xsize (grid1.coords t) 0 = 1024 ∧ win1_4.xsize (grid1.coords t) 1 = 4096)

/-- Every entry of the output array lies in the block some write-back writes: the one of its row's block of 1024 rows. -/
theorem cover1 (i : ((cfg1.win 4).arr.view.loc (c.tc : Thread nD τ)).2.ty.Idx) :
    ∃ t : Fin cfg1.N, (cfg1.win 4).flush t = true ∧ i ∈ ((cfg1.win 4).blk t).view.set := by
  have h0 : (i 0 : Nat) < 4096 := (i 0).isLt
  have h1 : (i 1 : Nat) < 4096 := (i 1).isLt
  have hN : cfg1.N = 64 := N_1
  have hG : grid1.N = 64 := N_1
  obtain ⟨t0, ht0⟩ : ∃ t0 : Fin grid1.N, t0.val = 16 * ((i 0 : Nat) / 1024) + 15 := ⟨⟨_, by omega⟩, rfl⟩
  refine ⟨t0, (flush1_4 t0).mpr (by rw [ht0]; omega), ?_⟩
  show i ∈ ((View.whole main_v13).slice (win1_4.rect t0)).set
  rw [View.set_slice_whole, Rect.mem_set_unit]
  intro a
  have hx := xsize1_4 t0
  have hi := idx1_4 t0
  match a with
  | ⟨0, _⟩ =>
    show win1_4.index t0 0 * win1_4.size 0 ≤ (i 0 : Nat) ∧ (i 0 : Nat) < win1_4.index t0 0 * win1_4.size 0 + win1_4.xsize (grid1.coords t0) 0
    rw [hi.1, hx.1, ht0]
    show (16 * ((i 0 : Nat) / 1024) + 15) / 16 * 1024 ≤ (i 0 : Nat) ∧ (i 0 : Nat) < (16 * ((i 0 : Nat) / 1024) + 15) / 16 * 1024 + 1024
    omega
  | ⟨1, _⟩ =>
    show win1_4.index t0 1 * win1_4.size 1 ≤ (i 1 : Nat) ∧ (i 1 : Nat) < win1_4.index t0 1 * win1_4.size 1 + win1_4.xsize (grid1.coords t0) 1
    rw [hi.2, hx.2]
    show 0 * 4096 ≤ (i 1 : Nat) ∧ (i 1 : Nat) < 0 * 4096 + 4096
    omega

/-- So the output array ends holding that function. -/
theorem final1 : (dat1 V c).arrAt 4 cfg1.N = G1 V c :=
  (dat1 V c).arrAt_eq_of_cover 4 (G1 V c) (flushed_eq1 V c) (cover1 c)

end Cert.KernelIdeal.HandValue

end
-- ==== Proof.KI.Assembly.lean ====
/-
  The whole program as a chain of three segments — the host lines, the first call, the second call — and its run:
  the contents of every unscoped buffer at each boundary (the host lines' results, then the first call's output
  array at what its pipeline leaves, then the second's), the two calls as segments over those contents, and the
  launch. Every weakly fair execution terminates; at the end each argument array holds its launch contents and
  the result array holds what the second call's pipeline leaves.
-/
import proofs.«135745_j1958505087324_2_alg».proof.Proof.KI.Data0
import proofs.«135745_j1958505087324_2_alg».proof.Proof.KI.Data1
import proofs.«135745_j1958505087324_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host lines (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- An argument array no host line writes and no call stages as an output ends as launched. -/
theorem W1_of (c : Dev nD) (r : Ref sig .tc) (h : r ∉ (hostOps0_W : List (Ref sig .tc))) :
    W1 m ρ c (Proc.devRef .tc r) = m ((c : Thread nD τ).loc r) :=
  Cert.KernelIdeal.Gen.V1_of m c r h
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_of m ρ c main_arg1 (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))
theorem W3_main_arg6 (c : Dev nD) : W3 m ρ c (Proc.devRef .tc main_arg6) = m ((c : Thread nD τ).loc main_arg6) :=
  (W3_of_ne m ρ c main_arg6 (by decide)).trans ((W2_of_ne m ρ c main_arg6 (by decide)).trans (W1_of m ρ c main_arg6 (by decide)))
theorem W3_main_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_of m ρ c main_arg7 (by decide)))
theorem W3_main_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_of m ρ c main_arg8 (by decide)))

/-- No call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Call 0 as a segment of @main: entered from every unscoped buffer at `W1`, left at `W2`. Its arrays are
    split out of the unscoped buffers and put back at the contents the pipeline leaves; the generator register and
    the scoped buffers go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered from every unscoped buffer at `W2`, left at `W3`. Its arrays are
    split out of the unscoped buffers and put back at the contents the pipeline leaves; the generator register and
    the scoped buffers go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩) (run_main m ρ)

/-- The result array ends at what the second call's pipeline leaves in it. -/
theorem result : θ_run defs (onTc (τ := τ) (main (F := F))) ⟨m, fun _ => 0, ρ⟩ (fun r => ∀ c : Dev nD,
      r.2.mem ((c.tc : Thread nD τ).loc main_v13) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v13 (by decide))).trans (W3_arr m ρ c 4),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩) (run_main m ρ)

end Cert.KernelIdeal.Hand

end
-- ==== Proof.KI.Prefix.lean ====
/-
  The host lines before the first call, read at an entry with floats as extended reals: the two weight matrices
  recast to a narrower format are themselves; the three vectors recast as one-row matrices read their entries; the
  two scaled vectors read the vector's entry times the one scale.
-/
import proofs.«135745_j1958505087324_2_alg».proof.Proof.KI.Assembly
import Idealize.ShloMosaic.Lib.StableHlo.Run
import Idealize.ShloMosaic.Lib.ValueLayout

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (m : (ℓ : Loc nD τ sig) → Buf (Elt Ideal) ℓ) (ρ : Dev nD → PrngReg) (c : Dev nD)

/-- The argument arrays, as functions to the extended reals. -/
def a0 : S4096x4096.Idx → EReal := m ((c : Thread nD τ).loc main_arg0)
def a1 : S4096.Idx → EReal := m ((c : Thread nD τ).loc main_arg1)
def a2 : S4096x4096.Idx → EReal := m ((c : Thread nD τ).loc main_arg2)
def a3 : S1.Idx → EReal := m ((c : Thread nD τ).loc main_arg3)
def a4 : S4096.Idx → EReal := m ((c : Thread nD τ).loc main_arg4)
def a5 : S4096x4096.Idx → EReal := m ((c : Thread nD τ).loc main_arg5)
def a6 : S1.Idx → EReal := m ((c : Thread nD τ).loc main_arg6)
def a7 : S4096.Idx → EReal := m ((c : Thread nD τ).loc main_arg7)
def a8 : S4096.Idx → EReal := m ((c : Thread nD τ).loc main_arg8)

theorem v_arg0 : (V1 m ρ c main_arg0 : S4096x4096.Idx → EReal) = a0 m c :=
  W1_of m ρ c main_arg0 (by decide)

theorem v0_eq : (V1 m ρ c main_v0 : S4096x4096.Idx → EReal) = a2 m c := by
  show StableHlo.after hostOps0 (W0 m ρ c) (Proc.devRef .tc main_v0) = _
  after_results
  rfl

theorem v1_eq : (V1 m ρ c main_v1 : S4096x4096.Idx → EReal) = a5 m c := by
  show StableHlo.after hostOps0 (W0 m ρ c) (Proc.devRef .tc main_v1) = _
  after_results
  rfl

theorem v10_apply (k : Fin 4096) : (V1 m ρ c main_v10 : S1x4096.Idx → EReal) (ix2 (0 : Fin 1) k) = a1 m c (ix1 k) := by
  have e : (V1 m ρ c main_v10 : S1x4096.Idx → EReal) = shapeCast S1x4096 (a1 m c) shapeCasts_S4096_S1x4096 := by
    show StableHlo.after hostOps0 (W0 m ρ c) (Proc.devRef .tc main_v10) = _
    after_results
    rfl
  rw [e]
  exact shapeCast_a_1a_apply _ _ 0 k

theorem v11_apply (k : Fin 4096) : (V1 m ρ c main_v11 : S1x4096.Idx → EReal) (ix2 (0 : Fin 1) k) = a8 m c (ix1 k) := by
  have e : (V1 m ρ c main_v11 : S1x4096.Idx → EReal) = shapeCast S1x4096 (a8 m c) shapeCasts_S4096_S1x4096 := by
    show StableHlo.after hostOps0 (W0 m ρ c) (Proc.devRef .tc main_v11) = _
    after_results
    rfl
  rw [e]
  exact shapeCast_a_1a_apply _ _ 0 k

/-- A one-entry vector recast as a scalar and spread over a vector reads the one entry. -/
theorem scale_apply (s : S1.Idx → EReal) (k : Fin 4096) :
    broadcastInDim S4096 ![] bcast_S_S4096 (shapeCast S_ s shapeCasts_S1_S_) (ix1 k) = s (ix1 (0 : Fin 1)) := by
  rw [broadcastInDim_apply ![] bcast_S_S4096 _ (ix1 k) ix0 (fun a => a.elim0)]
  exact shapeCast_apply s shapeCasts_S1_S_ ix0 (ix1 (0 : Fin 1)) (by
    have h1 := (S1.rowMajor (ix1 (0 : Fin 1))).isLt
    have h2 := (S_.rowMajor ix0).isLt
    simp [Shape.numel] at h1 h2
    omega)

theorem v5_apply (k : Fin 4096) :
    (V1 m ρ c main_v5 : S1x4096.Idx → EReal) (ix2 (0 : Fin 1) k) = a4 m c (ix1 k) * a3 m c (ix1 (0 : Fin 1)) := by
  have e : (V1 m ρ c main_v5 : S1x4096.Idx → EReal)
      = shapeCast S1x4096 (mulf (F := Ideal) (φ := .f32) (a4 m c) (broadcastInDim S4096 ![] bcast_S_S4096 (shapeCast S_ (a3 m c) shapeCasts_S1_S_))) shapeCasts_S4096_S1x4096 := by
    show StableHlo.after hostOps0 (W0 m ρ c) (Proc.devRef .tc main_v5) = _
    after_results
    rfl
  rw [e, shapeCast_a_1a_apply _ _ 0 k, mulf_apply, scale_apply]

theorem v9_apply (k : Fin 4096) :
    (V1 m ρ c main_v9 : S1x4096.Idx → EReal) (ix2 (0 : Fin 1) k) = a7 m c (ix1 k) * a6 m c (ix1 (0 : Fin 1)) := by
  have e : (V1 m ρ c main_v9 : S1x4096.Idx → EReal)
      = shapeCast S1x4096 (mulf (F := Ideal) (φ := .f32) (a7 m c) (broadcastInDim S4096 ![] bcast_S_S4096 (shapeCast S_ (a6 m c) shapeCasts_S1_S_))) shapeCasts_S4096_S1x4096 := by
    show StableHlo.after hostOps0 (W0 m ρ c) (Proc.devRef .tc main_v9) = _
    after_results
    rfl
  rw [e, shapeCast_a_1a_apply _ _ 0 k, mulf_apply, scale_apply]

end Cert.KernelIdeal.HandValue

end
-- ==== Proof.Spec.lean ====
/-
  The function both programs compute, entry by entry over the extended reals: scale the columns of x, multiply by the
  first weight matrix row against row, scale by the first scalar and the middle vector, multiply by the second weight matrix
  row against row, scale by the second scalar and the output vector, add the bias.
-/
import Idealize.ShloMosaic.Lib.ValueIdx
import Mathlib.Data.EReal.Basic

noncomputable section

open scoped BigOperators

namespace Cert.TwoStage

open Idealize.ShloMosaic Idealize.ShloMosaic.ValueIdx

abbrev Mat : Type := (⟨2, ![4096, 4096]⟩ : Shape).Idx → EReal
abbrev Vct : Type := (⟨1, ![4096]⟩ : Shape).Idx → EReal
abbrev Scl : Type := (⟨1, ![1]⟩ : Shape).Idx → EReal

/-- The reference's order of operations. -/
def spec (x0 : Mat) (x1 : Vct) (x2 : Mat) (x3 : Scl) (x4 : Vct) (x5 : Mat) (x6 : Scl) (x7 x8 : Vct) : Mat := fun i =>
  ((∑ k : Fin 4096, (((∑ j : Fin 4096, (x0 (ix2 (i 0) j) * x1 (ix1 j)) * x2 (ix2 k j)) * x3 (ix1 (0 : Fin 1))) * x4 (ix1 k))
      * x5 (ix2 (i 1) k)) * x6 (ix1 (0 : Fin 1))) * x7 (ix1 (i 1)) + x8 (ix1 (i 1))

/-- The kernels' order: each scalar is first multiplied into its vector. Multiplication of extended reals is
    associative and commutative, so this is the same function; no sum is distributed over, so nothing need be finite. -/
theorem spec_regroup (x0 : Mat) (x1 : Vct) (x2 : Mat) (x3 : Scl) (x4 : Vct) (x5 : Mat) (x6 : Scl) (x7 x8 : Vct) (i : (⟨2, ![4096, 4096]⟩ : Shape).Idx) :
    ((∑ k : Fin 4096, ((∑ j : Fin 4096, (x0 (ix2 (i 0) j) * x1 (ix1 j)) * x2 (ix2 k j)) * (x4 (ix1 k) * x3 (ix1 (0 : Fin 1))))
        * x5 (ix2 (i 1) k)) * (x7 (ix1 (i 1)) * x6 (ix1 (0 : Fin 1)))) + x8 (ix1 (i 1))
      = spec x0 x1 x2 x3 x4 x5 x6 x7 x8 i := by
  unfold spec
  congr 1
  rw [mul_comm (x7 (ix1 (i 1))) (x6 (ix1 (0 : Fin 1))), ← mul_assoc]
  congr 2
  refine Finset.sum_congr rfl fun k _ => ?_
  rw [mul_comm (x4 (ix1 k)) (x3 (ix1 (0 : Fin 1))), ← mul_assoc]

end Cert.TwoStage

end
-- ==== Proof.KI.Bridge.lean ====
/-
  The idealized kernel's result array as the specification's function of the argument arrays. The second call's
  output is a function of the arrays it is entered with; among those the intermediate array is the first call's
  output, itself a function of the arrays after the host lines, and those read the arguments. Put together entry by
  entry this is the specification with each scalar multiplied into its vector first, which is the same function
  because multiplication of extended reals is associative and commutative.
-/
import proofs.«135745_j1958505087324_2_alg».proof.Proof.KI.Sum1
import proofs.«135745_j1958505087324_2_alg».proof.Proof.KI.Prefix
import proofs.«135745_j1958505087324_2_alg».proof.Proof.Spec

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (m : (ℓ : Loc nD τ sig) → Buf (Elt Ideal) ℓ) (ρ : Dev nD → PrngReg) (c : Dev nD)

theorem xs_eq : xs (V1 m ρ) c = a0 m c := v_arg0 m ρ c
theorem bb_eq : bb (V1 m ρ) c = a2 m c := v0_eq m ρ c
theorem dbr_apply (k : Fin 4096) : dbr (V1 m ρ) c (ix2 (0 : Fin 1) k) = a1 m c (ix1 k) := v10_apply m ρ c k
theorem mid_at (q : Fin 4096) : mid (V1 m ρ) c (ix2 (0 : Fin 1) q) = a4 m c (ix1 q) * a3 m c (ix1 (0 : Fin 1)) := v5_apply m ρ c q

/-- The intermediate array at an entry, from the arguments. -/
theorem mid_apply (r q : Fin 4096) :
    G0 (V1 m ρ) c (ix2 r q)
      = (∑ j : Fin 4096, (a0 m c (ix2 r j) * a1 m c (ix1 j)) * a2 m c (ix2 q j)) * (a4 m c (ix1 q) * a3 m c (ix1 (0 : Fin 1))) := by
  show (∑ k : Fin 4096, (xs (V1 m ρ) c (ix2 r k) * dbr (V1 m ρ) c (ix2 (0 : Fin 1) k)) * bb (V1 m ρ) c (ix2 q k)) * mid (V1 m ρ) c (ix2 (0 : Fin 1) q) = _
  rw [xs_eq, bb_eq, mid_at]
  simp only [dbr_apply]

/-- What the second call is entered with: the first call's output and, untouched, the host lines' results. -/
theorem hh_eq : hh (V2 m ρ) c = G0 (V1 m ρ) c :=
  (W2_arr m ρ c 4).trans (final0 (V1 m ρ) c)
theorem ab_eq : ab (V2 m ρ) c = a5 m c :=
  (W2_of_ne m ρ c main_v1 (by decide)).trans (v1_eq m ρ c)
theorem da_apply (q : Fin 4096) : da (V2 m ρ) c (ix2 (0 : Fin 1) q) = a7 m c (ix1 q) * a6 m c (ix1 (0 : Fin 1)) :=
  (congrFun (W2_of_ne m ρ c main_v9 (by decide)) _).trans (v9_apply m ρ c q)
theorem bs_apply (q : Fin 4096) : bs (V2 m ρ) c (ix2 (0 : Fin 1) q) = a8 m c (ix1 q) :=
  (congrFun (W2_of_ne m ρ c main_v11 (by decide)) _).trans (v11_apply m ρ c q)

/-- THE KERNEL'S RESULT is the specification's function of the arguments. -/
theorem kernel_result :
    (dat1 (V2 m ρ) c).arrAt 4 cfg1.N
      = Cert.TwoStage.spec (a0 m c) (a1 m c) (a2 m c) (a3 m c) (a4 m c) (a5 m c) (a6 m c) (a7 m c) (a8 m c) := by
  rw [final1]
  funext j
  obtain ⟨r, q, rfl⟩ : ∃ (r q : Fin 4096), j = ix2 r q := ⟨j 0, j 1, eq_ix2 j⟩
  rw [← Cert.TwoStage.spec_regroup]
  show (∑ k : Fin 4096, hh (V2 m ρ) c (ix2 r k) * ab (V2 m ρ) c (ix2 q k)) * da (V2 m ρ) c (ix2 (0 : Fin 1) q) + bs (V2 m ρ) c (ix2 (0 : Fin 1) q) = _
  rw [hh_eq, ab_eq, da_apply, bs_apply]
  simp only [mid_apply]

end Cert.KernelIdeal.HandValue

end
-- ==== Proof.RefValue.lean ====
/-
  The reference program read at an entry, with floats as extended reals: its result is the specification's function
  of the nine argument arrays. Each broadcast reads the vector's entry, each transpose swaps the coordinates, each
  product of matrices is a sum over the contracted column, each elementwise product and the final sum act entrywise.
-/
import proofs.«135745_j1958505087324_2_alg».proof.Proof.Gen.ReferenceIdeal.Read
import proofs.«135745_j1958505087324_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx
open scoped BigOperators

theorem result_eq (x0 : Cert.TwoStage.Mat) (x1 : Cert.TwoStage.Vct) (x2 : Cert.TwoStage.Mat) (x3 : Cert.TwoStage.Scl)
    (x4 : Cert.TwoStage.Vct) (x5 : Cert.TwoStage.Mat) (x6 : Cert.TwoStage.Scl) (x7 x8 : Cert.TwoStage.Vct) :
    val_main_v21 (F := Ideal) x0 x1 x2 x3 x4 x5 x6 x7 x8 = Cert.TwoStage.spec x0 x1 x2 x3 x4 x5 x6 x7 x8 := by
  funext i
  rw [val_main_v21_apply, val_main_v20_apply, val_main_v19_apply, val_main_v18_apply, val_main_v17_apply, val_main_v16_apply,
    val_main_v15_apply, val_main_v14_apply, val_main_v13_apply, val_main_v12_apply]
  simp only [val_main_v11_apply, val_main_v10_apply, val_main_v9_apply, val_main_v8_apply, val_main_v7_apply, val_main_v6_apply,
    val_main_v5_apply, val_main_v4_apply, val_main_v3_apply, val_main_v2_apply, val_main_v1_apply, val_main_v0_apply]
  have e1 : ∀ x x_1, lidx_main_v4 (lidx_main_v12 i x) x_1 = ix2 (i 0) x_1 := fun x x_1 => by
    funext a; match a with | ⟨0, _⟩ => rfl | ⟨1, _⟩ => rfl
  have e2 : ∀ x x_1, idx_main_v0 (idx_main_v1 (lidx_main_v4 (lidx_main_v12 i x) x_1)) = ix1 x_1 := fun x x_1 => by
    funext a; match a with | ⟨0, _⟩ => rfl
  have e3 : ∀ x x_1, idx_main_v3 (ridx_main_v4 (lidx_main_v12 i x) x_1) = ix2 x x_1 := fun x x_1 => by
    funext a; match a with | ⟨0, _⟩ => rfl | ⟨1, _⟩ => rfl
  have e4 : ∀ x, idx_main_v5 (idx_main_v6 (lidx_main_v12 i x)) = ix1 (0 : Fin 1) := fun x => by
    funext a; match a with | ⟨0, _⟩ => rfl
  have e5 : ∀ x, idx_main_v8 (idx_main_v9 (lidx_main_v12 i x)) = ix1 x := fun x => by
    funext a; match a with | ⟨0, _⟩ => rfl
  have e6 : ∀ x, idx_main_v11 (ridx_main_v12 i x) = ix2 (i 1) x := fun x => by
    funext a; match a with | ⟨0, _⟩ => rfl | ⟨1, _⟩ => rfl
  have e7 : idx_main_v13 (idx_main_v14 i) = ix1 (0 : Fin 1) := by
    funext a; match a with | ⟨0, _⟩ => rfl
  have e8 : idx_main_v16 (idx_main_v17 i) = ix1 (i 1) := by
    funext a; match a with | ⟨0, _⟩ => rfl
  have e9 : idx_main_v19 (idx_main_v20 i) = ix1 (i 1) := by
    funext a; match a with | ⟨0, _⟩ => rfl
  have e2' : ∀ x_1 : Fin 4096, idx_main_v0 (idx_main_v1 (ix2 (i 0) x_1)) = ix1 x_1 := fun x_1 => by
    funext a; match a with | ⟨0, _⟩ => rfl
  simp only [e1, e2', e3, e4, e5, e6, e7, e8, e9]
  rfl

end Cert.ReferenceIdeal.RefValue

end
-- ==== Proof.lean ====
/-
  The certificate's five claims.

  Both programs compute, entry by entry over the extended reals,
      out(r, q) = ((Σ_k h(r, k) · A(q, k)) · s₃) · Da(q) + bias(q),   h(r, k) = ((Σ_j x(r, j) · Db(j) · B(k, j)) · s₁) · mid(k).
  The kernel does it in two pipelined calls: each walks a 4 × 16 grid, keeps a running sum of 1024 × 4096 entries in a
  scratch block, adds at each of a row's sixteen steps the product of the step's 256 columns, and at the last step
  scales the sum column by column — by mid(k) · s₁ in the first call and by Da(q) · s₃ (plus the bias) in the second,
  the scalars having been multiplied into the vectors on the host. A sum taken in sixteen consecutive blocks is the
  whole sum, and multiplication of extended reals is associative and commutative, so the two results agree with no
  finiteness assumption.

  The frames of the two kernel programs are one run each: the host lines, the first call, the second call, chained
  over the contents of the unscoped buffers at each boundary; every call's body is run once per control case (first
  step of a row, middle step, last step) and the running sum is carried from step to step in the call's invariant.
  The reference's frame is its run with the result dropped. The idealization rewrote nothing.
-/
import proofs.«135745_j1958505087324_2_alg».proof.Defs
import proofs.«135745_j1958505087324_2_alg».proof.Proof.Gen.Kernel
import proofs.«135745_j1958505087324_2_alg».proof.Proof.Gen.KernelIdeal
import proofs.«135745_j1958505087324_2_alg».proof.Proof.Gen.ReferenceIdeal
import proofs.«135745_j1958505087324_2_alg».proof.Proof.Gen.Pre_finite_inputs
import proofs.«135745_j1958505087324_2_alg».proof.Proof.KB.Assembly
import proofs.«135745_j1958505087324_2_alg».proof.Proof.KI.Bridge
import proofs.«135745_j1958505087324_2_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.HandValue

/-- The word-level kernel runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's function of the arguments in their result arrays. -/
theorem algebraic : Cert.algebraic_KernelIdeal_ReferenceIdeal := by
  intro m ρ m' ρ' _ hagree
  refine ⟨fun c => Cert.TwoStage.spec (a0 m c) (a1 m c) (a2 m c) (a3 m c) (a4 m c) (a5 m c) (a6 m c) (a7 m c) (a8 m c), ?_, ?_⟩
  · exact (θ_run Cert.KernelIdeal.defs _ _).mono (fun r h c => ⟨(h c).1.trans (kernel_result m ρ c), (h c).2⟩)
      (Cert.KernelIdeal.Hand.result (F := Ideal) m ρ)
  · refine (θ_run Cert.ReferenceIdeal.defs _ _).mono (fun _ h c => ⟨?_, (h c).2⟩)
      (Cert.ReferenceIdeal.Value.run (F := Ideal) m' ρ')
    refine (h c).1.trans ?_
    refine (Cert.ReferenceIdeal.Read.val_main_v21_eq _ _ _ _ _ _ _ _ _).trans ?_
    refine (Cert.ReferenceIdeal.RefValue.result_eq _ _ _ _ _ _ _ _ _).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
